-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x512 : Shape := ⟨2, ![256, 512]⟩
abbrev S256 : Shape := ⟨1, ![256]⟩
abbrev S1x256x1x1 : Shape := ⟨4, ![1, 256, 1, 1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn_part1 {F : FTy → Type} [FloatOps F] (main_arg4 : FVec F S256 .f32) (main_arg5 : FVec F S1x256x1x1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x256x1x1 .f32 := Host.absf main_arg5
  let main_cst_8 : FVec F S_ .f32 := constant S_ .f32 0x7F800000#32
  let main_v25 : FVec F S1x256x1x1 .f32 := broadcastInDim S1x256x1x1 ![] bcast_S_S1x256x1x1 main_cst_8
  let main_v26 : IVec S1x256x1x1 1 := cmpf .olt main_v24 main_v25
  let main_c_9 : IVec S_ 1 := constantI S_ 1 1#1
  let main_v27 : IVec S_ 1 := (fun x v => Host.reduce IntOp.andi x v reducesTo_S1x256x1x1_S_d0_1_2_3 h_S_) main_v26 main_c_9
  let main_v28 : IVec S_ 1 := andi main_v23 main_v27
  main_v28

def fn {F : FTy → Type} [FloatOps F] (main_arg0 : FVec F S65536x512 .f32) (main_arg1 : FVec F S256x512 .f32) (main_arg2 : FVec F S256 .f32) (main_arg3 : FVec F S256 .f32) (main_arg4 : FVec F S256 .f32) (main_arg5 : FVec F S1x256x1x1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S65536x512 : Shape := ⟨2, ![65536, 512]⟩
abbrev S256x512 : Shape := ⟨2, ![256, 512]⟩
abbrev S256 : Shape := ⟨1, ![256]⟩
abbrev S1x256x1x1 : Shape := ⟨4, ![1, 256, 1, 1]⟩
abbrev S256x1 : Shape := ⟨2, ![256, 1]⟩
abbrev S256x65536 : Shape := ⟨2, ![256, 65536]⟩
abbrev S2048x512 : Shape := ⟨2, ![2048, 512]⟩
abbrev S256x2048 : Shape := ⟨2, ![256, 2048]⟩
abbrev S8x32x2048 : Shape := ⟨3, ![8, 32, 2048]⟩
abbrev S8x2048 : Shape := ⟨2, ![8, 2048]⟩
abbrev S8x1x2048 : Shape := ⟨3, ![8, 1, 2048]⟩
abbrev S2048 : Shape := ⟨1, ![2048]⟩
abbrev S1x2048 : Shape := ⟨2, ![1, 2048]⟩
abbrev S1x256x65536x1 : Shape := ⟨4, ![1, 256, 65536, 1]⟩

abbrev nBuf : Space → Nat
  | .hbm => 12
  | .vmem => 9
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x256x1x1, .f32⟩
  | .hbm, ⟨6, _⟩ => ⟨S256x1, .f32⟩
  | .hbm, ⟨7, _⟩ => ⟨S256x1, .f32⟩
  | .hbm, ⟨8, _⟩ => ⟨S256x1, .f32⟩
  | .hbm, ⟨9, _⟩ => ⟨S256x1, .f32⟩
  | .hbm, ⟨10, _⟩ => ⟨S256x65536, .f32⟩
  | .hbm, ⟨11, _⟩ => ⟨S1x256x65536x1, .f32⟩
  | .local _ .vmem, ⟨0, _⟩ => ⟨S2048x512, .f32⟩
  | .local _ .vmem, ⟨1, _⟩ => ⟨S2048x512, .f32⟩
  | .local _ .vmem, ⟨2, _⟩ => ⟨S256x512, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x2048, .f32⟩
  | .local _ .vmem, ⟨8, _⟩ => ⟨S256x2048, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S256x1 : S256.ShapeCasts S256x1
  shapeCasts_S1x256x1x1_S256x1 : S1x256x1x1.ShapeCasts S256x1
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  shapeCasts_S256x2048_S8x32x2048 : S256x2048.ShapeCasts S8x32x2048
  reduces_S8x32x2048_S8x2048 : S8x32x2048.Reduces [1] S8x2048
  shapeCasts_S8x2048_S8x1x2048 : S8x2048.ShapeCasts S8x1x2048
  shapeCasts_S8x1x2048_S8x1x2048 : S8x1x2048.ShapeCasts S8x1x2048
  broadcasts_S8x1x2048_S8x32x2048 : S8x1x2048.Broadcasts S8x32x2048
  shapeCasts_S8x32x2048_S256x2048 : S8x32x2048.ShapeCasts S256x2048
  reduces_S256x2048_S2048 : S256x2048.Reduces [0] S2048
  shapeCasts_S2048_S1x2048 : S2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  shapeCasts_S256x65536_S1x256x65536x1 : S256x65536.ShapeCasts S1x256x65536x1
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S256x65536.size a
  hwx0_6 : ∀ i : grid0.Coords, EltTy.bits .f32 = 32 ∨ (Rect.block (s := S256x65536) S256x2048.size (cc0_transform_6 i) (hinb0_6 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x512 : Shape := ⟨2, ![65536, 512]⟩
abbrev S256x512 : Shape := ⟨2, ![256, 512]⟩
abbrev S256 : Shape := ⟨1, ![256]⟩
abbrev S1x256x1x1 : Shape := ⟨4, ![1, 256, 1, 1]⟩
abbrev S65536x256 : Shape := ⟨2, ![65536, 256]⟩
abbrev S1x256 : Shape := ⟨2, ![1, 256]⟩
abbrev S65536x8x32 : Shape := ⟨3, ![65536, 8, 32]⟩
abbrev S_ : Shape := ⟨0, ![]⟩
abbrev S65536x8 : Shape := ⟨2, ![65536, 8]⟩
abbrev S65536x8x1 : Shape := ⟨3, ![65536, 8, 1]⟩
abbrev S65536 : Shape := ⟨1, ![65536]⟩
abbrev S65536x1 : Shape := ⟨2, ![65536, 1]⟩
abbrev S1x1x65536x1 : Shape := ⟨4, ![1, 1, 65536, 1]⟩
abbrev S1x256x65536x1 : Shape := ⟨4, ![1, 256, 65536, 1]⟩

abbrev nBuf : Space → Nat
  | .hbm => 48
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x256x1x1, .f32⟩
  | .hbm, ⟨6, _⟩ => ⟨S65536x256, .f32⟩
  | .hbm, ⟨7, _⟩ => ⟨S1x256, .f32⟩
  | .hbm, ⟨8, _⟩ => ⟨S65536x256, .f32⟩
  | .hbm, ⟨9, _⟩ => ⟨S65536x256, .f32⟩
  | .hbm, ⟨10, _⟩ => ⟨S65536x8x32, .f32⟩
  | .hbm, ⟨11, _⟩ => ⟨S_, .f32⟩
  | .hbm, ⟨12, _⟩ => ⟨S65536x8, .f32⟩
  | .hbm, ⟨13, _⟩ => ⟨S65536x8x1, .f32⟩
  | .hbm, ⟨14, _⟩ => ⟨S_, .f32⟩
  | .hbm, ⟨15, _⟩ => ⟨S65536x8x1, .f32⟩
  | .hbm, ⟨16, _⟩ => ⟨S65536x8x1, .f32⟩
  | .hbm, ⟨17, _⟩ => ⟨S65536x8x32, .f32⟩
  | .hbm, ⟨18, _⟩ => ⟨S65536x8x32, .f32⟩
  | .hbm, ⟨19, _⟩ => ⟨S65536x8x32, .f32⟩
  | .hbm, ⟨20, _⟩ => ⟨S_, .f32⟩
  | .hbm, ⟨21, _⟩ => ⟨S65536x8, .f32⟩
  | .hbm, ⟨22, _⟩ => ⟨S65536x8x1, .f32⟩
  | .hbm, ⟨23, _⟩ => ⟨S_, .f32⟩
  | .hbm, ⟨24, _⟩ => ⟨S65536x8x1, .f32⟩
  | .hbm, ⟨25, _⟩ => ⟨S65536x8x1, .f32⟩
  | .hbm, ⟨26, _⟩ => ⟨S65536x8x32, .f32⟩
  | .hbm, ⟨27, _⟩ => ⟨S65536x8x32, .f32⟩
  | .hbm, ⟨28, _⟩ => ⟨S_, .f32⟩
  | .hbm, ⟨29, _⟩ => ⟨S65536x8x1, .f32⟩
  | .hbm, ⟨30, _⟩ => ⟨S65536x8x1, .f32⟩
  | .hbm, ⟨31, _⟩ => ⟨S65536x8x1, .f32⟩
  | .hbm, ⟨32, _⟩ => ⟨S65536x8x32, .f32⟩
  | .hbm, ⟨33, _⟩ => ⟨S65536x8x32, .f32⟩
  | .hbm, ⟨34, _⟩ => ⟨S65536x256, .f32⟩
  | .hbm, ⟨35, _⟩ => ⟨S1x256, .f32⟩
  | .hbm, ⟨36, _⟩ => ⟨S65536x256, .f32⟩
  | .hbm, ⟨37, _⟩ => ⟨S65536x256, .f32⟩
  | .hbm, ⟨38, _⟩ => ⟨S1x256, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536, .f32⟩
  | .hbm, ⟨43, _⟩ => ⟨S65536x1, .f32⟩
  | .hbm, ⟨44, _⟩ => ⟨S1x1x65536x1, .f32⟩
  | .hbm, ⟨45, _⟩ => ⟨S1x256x65536x1, .f32⟩
  | .hbm, ⟨46, _⟩ => ⟨S1x256x65536x1, .f32⟩
  | .hbm, ⟨47, _⟩ => ⟨S1x256x65536x1, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S65536x8x32 : S65536x256.ShapeCasts S65536x8x32
  reducesTo_S65536x8x32_S65536x8_d2 : S65536x8x32.ReducesTo [2] S65536x8
  h_S_ : 0 < S_.numel
  bcast_S65536x8_S65536x8x1_0_1 : S65536x8.BroadcastsInDim S65536x8x1 (![0, 1] : Fin 2 → Fin S65536x8x1.rank)
  bcast_S_S65536x8x1 : S_.BroadcastsInDim S65536x8x1 (![] : Fin 0 → Fin S65536x8x1.rank)
  bcast_S65536x8x1_S65536x8x32_0_1_2 : S65536x8x1.BroadcastsInDim S65536x8x32 (![0, 1, 2] : Fin 3 → Fin S65536x8x32.rank)
  shapeCasts_S65536x8x32_S65536x256 : S65536x8x32.ShapeCasts S65536x256
  reducesTo_S65536x256_S65536_d1 : S65536x256.ReducesTo [1] S65536
  bcast_S65536_S65536x1_0 : S65536.BroadcastsInDim S65536x1 (![0] : Fin 1 → Fin S65536x1.rank)
  bcast_S65536x1_S1x1x65536x1_2_3 : S65536x1.BroadcastsInDim S1x1x65536x1 (![2, 3] : Fin 2 → Fin S1x1x65536x1.rank)
  bcast_S1x1x65536x1_S1x256x65536x1_0_1_2_3 : S1x1x65536x1.BroadcastsInDim S1x256x65536x1 (![0, 1, 2, 3] : Fin 4 → Fin S1x256x65536x1.rank)
  bcast_S1x256x1x1_S1x256x65536x1_0_1_2_3 : S1x256x1x1.BroadcastsInDim S1x256x65536x1 (![0, 1, 2, 3] : Fin 4 → Fin S1x256x65536x1.rank)
  dot_S65536x512_S256x512_S65536x256_1_1_0_0_n_n_wf : DotDims.WF S65536x512 S256x512 S65536x256 [1] [1] [0] [0] [] []

variable [Facts₀]

def dot_S65536x512_S256x512_S65536x256_1_1_0_0_n_n : DotDims S65536x512 S256x512 S65536x256 where
  lhsContracting := [1]
  rhsContracting := [1]
  lhsNonContracting := [0]
  rhsNonContracting := [0]
  lhsBatch := []
  rhsBatch := []
  wf := dot_S65536x512_S256x512_S65536x256_1_1_0_0_n_n_wf

class Facts : Prop extends Facts₀ where

variable [Facts]
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibRealSum.lean ====
/-
  Finite sums of real numbers taken inside the extended reals.

  The extended reals do not distribute (∞ · (1 + (-1)) is not ∞ + (-∞)), so a factor cannot in general be moved
  across a sum there. When every summand and the factor are real numbers it can: the sum of the reals' images is the
  image of the real sum, and the real numbers are a field. The lemmas here are that statement in the shape a
  contraction with folded scales needs: Σ_k (a_k · s) · (b_k · t) = (Σ_k a_k · b_k) · (t · s).
-/
import Idealize.ShloMosaic.PureOps.Ideal

noncomputable section

namespace Cert.Lib.RealSum

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Σ_k (a_k · s) · (b_k · t) = (Σ_k a_k · b_k) · (t · s) for real numbers a_k, b_k, s, t, read in the extended reals:
    a scale on each operand of a contraction is one scale on the contraction. -/
theorem sum_rescale_real {n : ℕ} (a b : Fin n → ℝ) (s t : ℝ) :
    ∑ k, (((a k : ℝ) : EReal) * (s : EReal)) * (((b k : ℝ) : EReal) * (t : EReal))
      = (∑ k, ((a k : ℝ) : EReal) * ((b k : ℝ) : EReal)) * ((t : EReal) * (s : EReal)) := by
  simp only [← EReal.coe_mul]
  rw [coe_sum, coe_sum, ← EReal.coe_mul, Finset.sum_mul]
  exact congrArg _ (Finset.sum_congr rfl fun k _ => by ring)

/-- The same for extended reals each known to be a real number. -/
theorem sum_rescale {n : ℕ} (q w : Fin n → EReal) (s t : EReal)
    (hq : ∀ k, ∃ r : ℝ, q k = (r : EReal)) (hw : ∀ k, ∃ r : ℝ, w k = (r : EReal))
    (hs : ∃ r : ℝ, s = (r : EReal)) (ht : ∃ r : ℝ, t = (r : EReal)) :
    ∑ k, (q k * s) * (w k * t) = (∑ k, q k * w k) * (t * s) := by
  choose a ha using hq
  choose b hb using hw
  obtain ⟨s', rfl⟩ := hs
  obtain ⟨t', rfl⟩ := ht
  simp only [ha, hb]
  exact sum_rescale_real a b s' t'

end Cert.Lib.RealSum

end
-- ==== Proof.GroupStats.lean ====
/-
  The statistics of one normalisation group, in the two spellings that are compared.

  A group is 32 numbers h_0 … h_31. One program computes the mean as (Σ h_j) · (1/32) and the variance as
  max(Σ h_j² · (1/32) − mean², 0); the other computes the mean as (0 + Σ h_j) / 32 and the variance as
  (0 + Σ (h_j − mean)²) / 32. The words 0x3D000000 and 0x42000000 denote exactly 1/32 and 32, so the two means
  agree for any extended reals; the two variances agree when the h_j are real numbers, by expanding the square
  (Σ (h_j − m)² = Σ h_j² − 32 m² for m the mean), and the maximum with 0 changes nothing because a mean of squares
  is nonnegative.
-/
import Idealize.ShloMosaic.PureOps.Ideal
import proofs.«140552_j66924180406504_2_alg».proof.Proof.LibRealSum

noncomputable section

namespace Cert.GroupStats

open Idealize.ShloMosaic

/-- The word of +0.0 denotes 0. -/
theorem ofBits_zero : Ideal.ofBits .f32 0x00000000#32 = 0 := by
  simp [Ideal.ofBits, Ideal.ieee]

/-- The word of 32.0 denotes the real number 32. -/
theorem ofBits_32 : Ideal.ofBits .f32 0x42000000#32 = ((32 : ℝ) : EReal) := by
  simp [Ideal.ofBits, Ideal.ieee, -EReal.coe_mul]; norm_num

/-- The word of 0.03125 denotes the real number 1/32, exactly (a power of two). -/
theorem ofBits_inv32 : Ideal.ofBits .f32 0x3D000000#32 = ((1 / 32 : ℝ) : EReal) := by
  simp [Ideal.ofBits, Ideal.ieee, -EReal.coe_mul]; norm_num

/-- (0 + s) / 32 is s · (1/32), for every extended real s. -/
theorem div32 (s : EReal) :
    Ideal.div (Ideal.ofBits .f32 0x00000000#32 + s) (Ideal.ofBits .f32 0x42000000#32) = s * Ideal.ofBits .f32 0x3D000000#32 := by
  rw [ofBits_zero, ofBits_32, ofBits_inv32, zero_add, Ideal.div_coe (by norm_num : (32 : ℝ) ≠ 0)]

/-- Over the reals: the mean of the squares minus the square of the mean is the mean of the squared deviations. -/
theorem var_real (r : Fin 32 → ℝ) :
    (∑ j, r j * r j) * (1 / 32) - ((∑ j, r j) * (1 / 32)) * ((∑ j, r j) * (1 / 32))
      = (∑ j, (r j - (∑ i, r i) * (1 / 32)) * (r j - (∑ i, r i) * (1 / 32))) * (1 / 32) := by
  have e : ∀ j, (r j - (∑ i, r i) * (1 / 32)) * (r j - (∑ i, r i) * (1 / 32))
      = r j * r j - (2 * ((∑ i, r i) * (1 / 32))) * r j + ((∑ i, r i) * (1 / 32)) * ((∑ i, r i) * (1 / 32)) :=
    fun j => by ring
  simp only [e, Finset.sum_add_distrib, Finset.sum_sub_distrib, ← Finset.mul_sum, Finset.sum_const,
    Finset.card_univ, Fintype.card_fin, nsmul_eq_mul]
  push_cast
  ring

/-- The same in the extended reals, for real entries, with the clamp at 0 removed. -/
theorem var_coe (r : Fin 32 → ℝ) :
    max ((∑ j, ((r j : ℝ) : EReal) * ((r j : ℝ) : EReal)) * ((1 / 32 : ℝ) : EReal)
        - ((∑ j, ((r j : ℝ) : EReal)) * ((1 / 32 : ℝ) : EReal)) * ((∑ j, ((r j : ℝ) : EReal)) * ((1 / 32 : ℝ) : EReal))) 0
      = (∑ j, (((r j : ℝ) : EReal) - (∑ i, ((r i : ℝ) : EReal)) * ((1 / 32 : ℝ) : EReal))
          * (((r j : ℝ) : EReal) - (∑ i, ((r i : ℝ) : EReal)) * ((1 / 32 : ℝ) : EReal))) * ((1 / 32 : ℝ) : EReal) := by
  simp only [← EReal.coe_mul, Cert.Lib.RealSum.coe_sum, ← EReal.coe_sub]
  rw [var_real r]
  exact max_eq_left (EReal.coe_nonneg.mpr
    (mul_nonneg (Finset.sum_nonneg fun j _ => mul_self_nonneg _) (by norm_num)))

end Cert.GroupStats

end
-- ==== Proof.RowSpec.lean ====
/-
  One batch row of the computation: 256 channel values h_0 … h_255 in eight consecutive groups of 32.

  Channel o belongs to group o / 32, and channel j of group g is 32 g + j. Each channel is centred by its group's
  mean, scaled by the group's reciprocal standard deviation 1 / sqrt(variance + eps), then by a per-channel weight,
  and shifted by a per-channel bias; the row's result is the minimum over the 256 channels (started from +∞).
  The group statistics are written in the two spellings of GroupStats; they are the same numbers when the row's
  entries are real.
-/
import Idealize.ShloMosaic.PureOps.Ideal
import proofs.«140552_j66924180406504_2_alg».proof.Proof.GroupStats

noncomputable section

namespace Cert.RowSpec

open Idealize.ShloMosaic

/-- Channel `j` of group `g`. -/
abbrev chan (g : Fin 8) (j : Fin 32) : Fin 256 := ⟨g.val * 32 + j.val, by have := g.isLt; have := j.isLt; omega⟩

/-- The group of channel `o`. -/
abbrev grp (o : Fin 256) : Fin 8 := ⟨o.val / 32, by have := o.isLt; omega⟩

/-- Mean of group `g`: the sum times 1/32. -/
def meanMul (h : Fin 256 → EReal) (g : Fin 8) : EReal :=
  (∑ j : Fin 32, h (chan g j)) * Ideal.ofBits .f32 0x3D000000#32

/-- Reciprocal standard deviation of group `g`, the variance as mean of squares minus squared mean, clamped at 0. -/
def istdMul (h : Fin 256 → EReal) (g : Fin 8) : EReal :=
  Ideal.rsqrt (max ((∑ j : Fin 32, h (chan g j) * h (chan g j)) * Ideal.ofBits .f32 0x3D000000#32
      - meanMul h g * meanMul h g) (Ideal.ofBits .f32 0x00000000#32) + Ideal.ofBits .f32 0x3727C5AC#32)

/-- Mean of group `g`: zero plus the sum, divided by 32. -/
def meanDiv (h : Fin 256 → EReal) (g : Fin 8) : EReal :=
  Ideal.div (Ideal.ofBits .f32 0x00000000#32 + ∑ j : Fin 32, h (chan g j)) (Ideal.ofBits .f32 0x42000000#32)

/-- Reciprocal standard deviation of group `g`, the variance as the mean of the squared deviations. -/
def istdDiv (h : Fin 256 → EReal) (g : Fin 8) : EReal :=
  Ideal.rsqrt (Ideal.div (Ideal.ofBits .f32 0x00000000#32
      + ∑ j : Fin 32, (h (chan g j) - meanDiv h g) * (h (chan g j) - meanDiv h g)) (Ideal.ofBits .f32 0x42000000#32)
    + Ideal.ofBits .f32 0x3727C5AC#32)

/-- The normalised, scaled and shifted channel `o`. -/
def gn (mean istd : Fin 8 → EReal) (h wg bg : Fin 256 → EReal) (o : Fin 256) : EReal :=
  (h o - mean (grp o)) * istd (grp o) * wg o + bg o

/-- The minimum over the channels, from +∞. -/
def rowMin (v : Fin 256 → EReal) : EReal :=
  (Finset.univ : Finset (Fin 256)).fold min (Ideal.ofBits .f32 0x7F800000#32) v

/-- The two means are the same extended real. -/
theorem mean_eq (h : Fin 256 → EReal) (g : Fin 8) : meanDiv h g = meanMul h g := by
  unfold meanDiv meanMul
  exact Cert.GroupStats.div32 _

/-- For a row of real numbers the two reciprocal standard deviations are the same. -/
theorem istd_eq (h : Fin 256 → EReal) (hreal : ∀ o, ∃ r : ℝ, h o = (r : EReal)) (g : Fin 8) :
    istdDiv h g = istdMul h g := by
  choose r hr using hreal
  unfold istdDiv istdMul
  refine congrArg (fun v => Ideal.rsqrt (v + Ideal.ofBits .f32 0x3727C5AC#32)) ?_
  rw [Cert.GroupStats.div32, mean_eq]
  unfold meanMul
  simp only [hr]
  rw [Cert.GroupStats.ofBits_inv32, Cert.GroupStats.ofBits_zero]
  exact (Cert.GroupStats.var_coe fun j => r (chan g j)).symm

/-- So the normalised channels, and the row's minimum, are the same in the two spellings. -/
theorem rowMin_eq (h wg bg : Fin 256 → EReal) (hreal : ∀ o, ∃ r : ℝ, h o = (r : EReal)) :
    rowMin (gn (meanDiv h) (istdDiv h) h wg bg) = rowMin (gn (meanMul h) (istdMul h) h wg bg) := by
  have e1 : meanDiv h = meanMul h := funext (mean_eq h)
  have e2 : istdDiv h = istdMul h := funext (istd_eq h hreal)
  rw [e1, e2]

end Cert.RowSpec

end
-- ==== Proof.KernelStages.lean ====
/-
  What the kernel's body stores, read at one entry.

  The body works on a block of 2048 batch rows (the lanes) against all 256 channels (the sublanes): entry (o, c)
  of the block is about channel o of the block's batch row c. It forms h(o, c) = Σ_k w(o, k) · x(c, k) + b(o), views
  the 256 channels as 8 groups of 32 (channel o is entry (o / 32, o % 32) of the [8, 32, 2048] view), sums h and h²
  over each group, turns the sums into a mean and a reciprocal standard deviation per (group, c), spreads them back
  over the group's channels, normalises, scales and shifts by per-channel columns, takes the minimum over all
  channels for each c, and adds a per-channel column. Each stage below is the printed operations of that stage
  together with its value at an index; the last lemma puts them together: the stored entry (o, c) is the row
  minimum of RowSpec for batch row c, in the "sum times 1/32" spelling, plus the last column at o.
-/
import proofs.«140552_j66924180406504_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«140552_j66924180406504_2_alg».proof.Proof.LibKeepdims
import proofs.«140552_j66924180406504_2_alg».proof.Proof.RowSpec

noncomputable section

namespace Cert.KernelIdeal.Gen.Stages

open Cert.KernelIdeal Cert.KernelIdeal.Gen Idealize.ShloMosaic Idealize.ShloMosaic.ValueIdx Cert.RowSpec

/-! ## A per-channel column spread over the lanes -/

/-- A [256, 1] column broadcast to [256, 2048]. -/
def bcol (v : Vec Ideal S256x1 .f32) : FVec Ideal S256x2048 .f32 :=
  broadcastTo S256x2048 (shapeCast S256x1 v shapeCasts_S256x1_S256x1) broadcasts_S256x1_S256x2048

/-- Entry (o, c) of the spread column is the column at o. -/
theorem bcol_apply (v : Vec Ideal S256x1 .f32) (o : Fin 256) (c : Fin 2048) :
    bcol v (ix2 o c) = v (ix2 o (0 : Fin 1)) := by
  unfold bcol
  rw [shapeCast_self]
  exact Keepdims.broadcastTo_a1_ab_apply v _ o c

/-! ## The linear layer -/

/-- h = w · xᵀ + b on the block: the product contracts the second axis of both operands. -/
def lin (x0 : Vec Ideal S2048x512 .f32) (x1 : Vec Ideal S256x512 .f32) (x2 : Vec Ideal S256x1 .f32) : FVec Ideal S256x2048 .f32 :=
  addf (matmul dot_S256x512_S2048x512_S256x2048_1_1_0_0_n_n none (truncf .bf16 x1 bitsLt_bf16_f32) (truncf .bf16 x0 bitsLt_bf16_f32)
    (constant S256x2048 .f32 0x00000000#32)) (bcol x2)

theorem lhs_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide),
    dif_pos (show (0 : Fin S256x512.rank) ∈ dot_S256x512_S2048x512_S256x2048_1_1_0_0_n_n.lhsNonContracting by decide)]
  rfl

theorem rhs_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide),
    dif_pos (show (0 : Fin S2048x512.rank) ∈ dot_S256x512_S2048x512_S256x2048_1_1_0_0_n_n.rhsNonContracting by decide)]
  rfl

/-- h(o, c) = Σ_k w(o, k) · x(c, k) + b(o). -/
theorem lin_apply (x0 : Vec Ideal S2048x512 .f32) (x1 : Vec Ideal S256x512 .f32) (x2 : Vec Ideal S256x1 .f32) (o : Fin 256) (c : Fin 2048) :
    lin x0 x1 x2 (ix2 o c) = (∑ k : Fin 512, x1 (ix2 o k) * x0 (ix2 c k)) + x2 (ix2 o (0 : Fin 1)) := by
  unfold lin
  show matmul dot_S256x512_S2048x512_S256x2048_1_1_0_0_n_n none (truncf .bf16 x1 bitsLt_bf16_f32) (truncf .bf16 x0 bitsLt_bf16_f32)
      (constant S256x2048 .f32 0x00000000#32) (ix2 o c) + bcol x2 (ix2 o c) = _
  rw [bcol_apply]
  refine congrArg (· + x2 (ix2 o (0 : Fin 1))) ?_
  refine (Ideal.matmul_constant_zero_apply dot_S256x512_S2048x512_S256x2048_1_1_0_0_n_n none _ _ (ix2 o c)).trans ?_
  rw [← Equiv.sum_comp (ValueIdx.contrEquiv1 dot_S256x512_S2048x512_S256x2048_1_1_0_0_n_n 512 rfl rfl).symm]
  refine Finset.sum_congr rfl fun k _ => ?_
  have hk := ValueIdx.contrEquiv1_symm_val dot_S256x512_S2048x512_S256x2048_1_1_0_0_n_n 512 rfl rfl k
  have el : dot_S256x512_S2048x512_S256x2048_1_1_0_0_n_n.lhsIdx (ix2 o c)
      ((ValueIdx.contrEquiv1 dot_S256x512_S2048x512_S256x2048_1_1_0_0_n_n 512 rfl rfl).symm k) = ix2 o k := funext fun a => Fin.ext (by
    match a with
    | ⟨0, _⟩ => exact lhs_0 _ _
    | ⟨1, _⟩ => exact (dot_S256x512_S2048x512_S256x2048_1_1_0_0_n_n.lhsIdx_val_of_single rfl _ _).trans hk)
  have er : dot_S256x512_S2048x512_S256x2048_1_1_0_0_n_n.rhsIdx (ix2 o c)
      ((ValueIdx.contrEquiv1 dot_S256x512_S2048x512_S256x2048_1_1_0_0_n_n 512 rfl rfl).symm k) = ix2 c k := funext fun a => Fin.ext (by
    match a with
    | ⟨0, _⟩ => exact rhs_0 _ _
    | ⟨1, _⟩ => exact (dot_S256x512_S2048x512_S256x2048_1_1_0_0_n_n.rhsIdx_val_of_single rfl _ _).trans hk)
  rw [el, er]
  rfl

/-! ## The group view and the group sums -/

/-- Entry (g, j, c) of the [8, 32, 2048] view is entry (32 g + j, c). -/
theorem cast3_apply (v : FVec Ideal S256x2048 .f32) (g : Fin 8) (j : Fin 32) (c : Fin 2048) :
    shapeCast S8x32x2048 v shapeCasts_S256x2048_S8x32x2048 (ix3 g j c) = v (ix2 (chan g j) c) :=
  shapeCast_apply v _ (ix3 g j c) (ix2 (chan g j) c) (by
    rw [Shape.rowMajor_val_two, Shape.rowMajor_val_three]
    show (g.val * 32 + j.val) * 2048 + c.val = (g.val * 32 + j.val) * 2048 + c.val
    rfl)

/-- The index over (g, c) with j on the reduced middle axis is (g, j, c). -/
theorem lift_mid (g : Fin 8) (c : Fin 2048) (j : Fin 32) :
    reduces_S8x32x2048_S8x2048.lift (ix2 g c) j = ix3 g j c :=
  funext fun a => Fin.ext (by match a with | ⟨0, _⟩ => rfl | ⟨1, _⟩ => rfl | ⟨2, _⟩ => rfl)

/-- Sum over each group's 32 channels. -/
def groupSum (v : FVec Ideal S256x2048 .f32) : FVec Ideal S8x2048 .f32 :=
  multiReduction .add [1] S8x2048 (shapeCast S8x32x2048 v shapeCasts_S256x2048_S8x32x2048) 0x00000000#32 reduces_S8x32x2048_S8x2048 (.inl rfl) rfl

/-- Sum of squares over each group's 32 channels. -/
def groupSumSq (v : FVec Ideal S256x2048 .f32) : FVec Ideal S8x2048 .f32 :=
  multiReduction .add [1] S8x2048 (mulf (shapeCast S8x32x2048 v shapeCasts_S256x2048_S8x32x2048) (shapeCast S8x32x2048 v shapeCasts_S256x2048_S8x32x2048))
    0x00000000#32 reduces_S8x32x2048_S8x2048 (.inl rfl) rfl

theorem groupSum_apply (v : FVec Ideal S256x2048 .f32) (g : Fin 8) (c : Fin 2048) :
    groupSum v (ix2 g c) = ∑ j : Fin 32, v (ix2 (chan g j) c) := by
  unfold groupSum
  refine (Ideal.multiReduction_add_single _ 0x00000000#32 reduces_S8x32x2048_S8x2048 (.inl rfl) rfl (ix2 g c)).trans ?_
  refine Finset.sum_congr rfl fun j _ => ?_
  exact (congrArg (shapeCast S8x32x2048 v shapeCasts_S256x2048_S8x32x2048) (lift_mid g c j)).trans (cast3_apply v g j c)

theorem groupSumSq_apply (v : FVec Ideal S256x2048 .f32) (g : Fin 8) (c : Fin 2048) :
    groupSumSq v (ix2 g c) = ∑ j : Fin 32, v (ix2 (chan g j) c) * v (ix2 (chan g j) c) := by
  unfold groupSumSq
  refine (Ideal.multiReduction_add_single _ 0x00000000#32 reduces_S8x32x2048_S8x2048 (.inl rfl) rfl (ix2 g c)).trans ?_
  refine Finset.sum_congr rfl fun j _ => ?_
  have e := (congrArg (shapeCast S8x32x2048 v shapeCasts_S256x2048_S8x32x2048) (lift_mid g c j)).trans (cast3_apply v g j c)
  exact congrArg₂ (fun a b : EReal => a * b) e e

/-! ## A per-group quantity spread back over the group's channels -/

/-- [8, 2048] → [8, 1, 2048] → broadcast to [8, 32, 2048] → [256, 2048]. -/
def spread (u : FVec Ideal S8x2048 .f32) : FVec Ideal S256x2048 .f32 :=
  shapeCast S256x2048 (broadcastTo S8x32x2048 (shapeCast S8x1x2048 (shapeCast S8x1x2048 u shapeCasts_S8x2048_S8x1x2048) shapeCasts_S8x1x2048_S8x1x2048)
    broadcasts_S8x1x2048_S8x32x2048) shapeCasts_S8x32x2048_S256x2048

/-- Entry (o, c) of the spread is the group quantity at (o / 32, c). -/
theorem spread_apply (u : FVec Ideal S8x2048 .f32) (o : Fin 256) (c : Fin 2048) :
    spread u (ix2 o c) = u (ix2 (grp o) c) := by
  unfold spread
  rw [shapeCast_self]
  refine (shapeCast_apply _ shapeCasts_S8x32x2048_S256x2048 (ix2 o c)
    (ix3 (grp o) (⟨o.val % 32, Nat.mod_lt _ (by norm_num)⟩ : Fin 32) c) (by
      rw [Shape.rowMajor_val_three, Shape.rowMajor_val_two]
      show (o.val / 32 * 32 + o.val % 32) * 2048 + c.val = o.val * 2048 + c.val
      have := Nat.div_add_mod o.val 32
      omega)).trans ?_
  refine (broadcastTo_apply _ broadcasts_S8x1x2048_S8x32x2048 _ (ix3 (grp o) (0 : Fin 1) c) (fun a => ?_)).trans ?_
  · match a with
    | ⟨0, _⟩ => show o.val / 32 = if (8 : Nat) = 1 then 0 else o.val / 32; rw [if_neg (by decide)]
    | ⟨1, _⟩ => show 0 = if (1 : Nat) = 1 then 0 else o.val % 32; rw [if_pos rfl]
    | ⟨2, _⟩ => show c.val = if (2048 : Nat) = 1 then 0 else c.val; rw [if_neg (by decide)]
  · exact shapeCast_apply u shapeCasts_S8x2048_S8x1x2048 (ix3 (grp o) (0 : Fin 1) c) (ix2 (grp o) c) (by
      rw [Shape.rowMajor_val_two, Shape.rowMajor_val_three]
      show o.val / 32 * 2048 + c.val = (o.val / 32 * 1 + 0) * 2048 + c.val
      omega)

/-! ## The minimum over the channels, spread over the channels -/

/-- Column minimum of a [256, 2048] block as a [1, 2048] row broadcast back to [256, 2048]. -/
def colMin (v : FVec Ideal S256x2048 .f32) : FVec Ideal S256x2048 .f32 :=
  broadcastTo S256x2048 (shapeCast S1x2048 (multiReduction .minimumf [0] S2048 v 0x7F800000#32 reduces_S256x2048_S2048 (.inl rfl) rfl)
    shapeCasts_S2048_S1x2048) broadcasts_S1x2048_S256x2048

/-- Entry (o, c) is the minimum over all channels of column c, from +∞. -/
theorem colMin_apply (v : FVec Ideal S256x2048 .f32) (o : Fin 256) (c : Fin 2048) :
    colMin v (ix2 o c) = rowMin fun o' => v (ix2 o' c) := by
  unfold colMin rowMin
  refine (broadcastTo_1b_ab_apply _ broadcasts_S1x2048_S256x2048 o c).trans ?_
  refine (shapeCast_a_1a_apply _ shapeCasts_S2048_S1x2048 (0 : Fin 1) c).trans ?_
  refine (multiReduction_minimumf_eq_fold v 0x7F800000#32 reduces_S256x2048_S2048 (.inl rfl) rfl (ix1 c)).trans ?_
  refine (reduces_S256x2048_S2048.fold_filter_drop_single FloatOps.minimumf (FloatOps.ofBits .f32 0x7F800000#32) v (ix1 c)).trans ?_
  have e : (v ∘ reduces_S256x2048_S2048.lift (ix1 c)) = fun o' : Fin 256 => v (ix2 o' c) :=
    funext fun o' => congrArg v (funext fun a => Fin.ext (by match a with | ⟨0, _⟩ => rfl | ⟨1, _⟩ => rfl))
  show Finset.fold min (Ideal.ofBits .f32 0x7F800000#32) (v ∘ reduces_S256x2048_S2048.lift (ix1 c)) (Finset.univ : Finset (Fin 256)) = _
  rw [e]
  rfl

/-! ## Mean and reciprocal standard deviation per (group, lane) -/

def meanV (H : FVec Ideal S256x2048 .f32) : FVec Ideal S8x2048 .f32 :=
  mulf (groupSum H) (broadcast S8x2048 (Scalar.ofBits (F := Ideal) .f32 0x3D000000#32))

def istdV (H : FVec Ideal S256x2048 .f32) : FVec Ideal S8x2048 .f32 :=
  rsqrt (addf (maximumf (subf (mulf (groupSumSq H) (broadcast S8x2048 (Scalar.ofBits (F := Ideal) .f32 0x3D000000#32))) (mulf (meanV H) (meanV H)))
    (broadcast S8x2048 (Scalar.ofBits (F := Ideal) .f32 0x00000000#32))) (broadcast S8x2048 (Scalar.ofBits (F := Ideal) .f32 0x3727C5AC#32)))

theorem meanV_apply (H : FVec Ideal S256x2048 .f32) (g : Fin 8) (c : Fin 2048) :
    meanV H (ix2 g c) = meanMul (fun o => H (ix2 o c)) g := by
  unfold meanV meanMul
  show groupSum H (ix2 g c) * Ideal.ofBits .f32 0x3D000000#32 = _
  rw [groupSum_apply]

theorem istdV_apply (H : FVec Ideal S256x2048 .f32) (g : Fin 8) (c : Fin 2048) :
    istdV H (ix2 g c) = istdMul (fun o => H (ix2 o c)) g := by
  unfold istdV istdMul
  show Ideal.rsqrt (max (groupSumSq H (ix2 g c) * Ideal.ofBits .f32 0x3D000000#32 - meanV H (ix2 g c) * meanV H (ix2 g c))
    (Ideal.ofBits .f32 0x00000000#32) + Ideal.ofBits .f32 0x3727C5AC#32) = _
  rw [groupSumSq_apply, meanV_apply]

/-! ## The whole stored value -/

/-- The body's payload is the stages composed. -/
theorem pay_eq (x0 : Vec Ideal S2048x512 .f32) (x1 : Vec Ideal S256x512 .f32) (x2 x3 x4 x5 : Vec Ideal S256x1 .f32) :
    k0_pay1 (k0_pay2 x0 x1 x2 x3 x4) x5
      = addf (colMin (addf (mulf (mulf (subf (lin x0 x1 x2) (spread (meanV (lin x0 x1 x2)))) (spread (istdV (lin x0 x1 x2)))) (bcol x3)) (bcol x4)))
          (bcol x5) := rfl

/-- Batch row c of the block: channel o ↦ Σ_k w(o, k) · x(c, k) + b(o). -/
def hrow (x0 : Vec Ideal S2048x512 .f32) (x1 : Vec Ideal S256x512 .f32) (x2 : Vec Ideal S256x1 .f32) (c : Fin 2048) : Fin 256 → EReal :=
  fun o => (∑ k : Fin 512, x1 (ix2 o k) * x0 (ix2 c k)) + x2 (ix2 o (0 : Fin 1))

/-- The stored entry (o, c): the minimum over the channels of batch row c's normalised values, plus the last column at o. -/
theorem pay_apply (x0 : Vec Ideal S2048x512 .f32) (x1 : Vec Ideal S256x512 .f32) (x2 x3 x4 x5 : Vec Ideal S256x1 .f32) (o : Fin 256) (c : Fin 2048) :
    k0_pay1 (k0_pay2 x0 x1 x2 x3 x4) x5 (ix2 o c)
      = rowMin (gn (meanMul (hrow x0 x1 x2 c)) (istdMul (hrow x0 x1 x2 c)) (hrow x0 x1 x2 c)
          (fun o' => x3 (ix2 o' (0 : Fin 1))) (fun o' => x4 (ix2 o' (0 : Fin 1)))) + x5 (ix2 o (0 : Fin 1)) := by
  rw [pay_eq]
  show colMin _ (ix2 o c) + bcol x5 (ix2 o c) = _
  rw [colMin_apply, bcol_apply]
  refine congrArg (· + x5 (ix2 o (0 : Fin 1))) ?_
  refine congrArg rowMin (funext fun o' => ?_)
  have hl : (fun o => lin x0 x1 x2 (ix2 o c)) = hrow x0 x1 x2 c := funext fun o => lin_apply x0 x1 x2 o c
  show (lin x0 x1 x2 (ix2 o' c) - spread (meanV (lin x0 x1 x2)) (ix2 o' c)) * spread (istdV (lin x0 x1 x2)) (ix2 o' c) * bcol x3 (ix2 o' c)
      + bcol x4 (ix2 o' c) = _
  rw [spread_apply, spread_apply, bcol_apply, bcol_apply, meanV_apply, istdV_apply, hl, lin_apply]
  rfl

end Cert.KernelIdeal.Gen.Stages

end
-- ==== Proof.ResultSpec.lean ====
/-
  The whole result, as a function of the six argument arrays.

  For batch row b the 256 channel values are h_b(o) = Σ_k x(b, k) · w(o, k) + bl(o). Entry (channel o, batch row b)
  of the result is the row minimum (RowSpec) of h_b normalised with the per-channel weight and bias, plus the last
  argument at channel o — the same for every o of a batch row but for that last term. The two spellings of the
  group statistics give the same result when x, w and bl hold real numbers, because then every h_b(o) is real.
-/
import Idealize.ShloMosaic.PureOps.Ideal
import Idealize.ShloMosaic.Lib.ValueIdx
import proofs.«140552_j66924180406504_2_alg».proof.Proof.RowSpec
import proofs.«140552_j66924180406504_2_alg».proof.Proof.LibRealSum

noncomputable section

namespace Cert.ResultSpec

open Idealize.ShloMosaic Idealize.ShloMosaic.ValueIdx Cert.RowSpec

/-- Batch row `b` of the linear layer: channel o ↦ Σ_k x(b, k) · w(o, k) + bl(o). -/
def hrow (X : (⟨2, ![65536, 512]⟩ : Shape).Idx → EReal) (W : (⟨2, ![256, 512]⟩ : Shape).Idx → EReal)
    (BL : (⟨1, ![256]⟩ : Shape).Idx → EReal) (b : Fin 65536) : Fin 256 → EReal :=
  fun o => (∑ k : Fin 512, X (ix2 b k) * W (ix2 o k)) + BL (ix1 o)

/-- The result at (channel o, batch row b), group statistics by division. -/
def resultDiv (X : (⟨2, ![65536, 512]⟩ : Shape).Idx → EReal) (W : (⟨2, ![256, 512]⟩ : Shape).Idx → EReal)
    (BL WG BG : (⟨1, ![256]⟩ : Shape).Idx → EReal) (BI : (⟨4, ![1, 256, 1, 1]⟩ : Shape).Idx → EReal) (o : Fin 256) (b : Fin 65536) : EReal :=
  rowMin (gn (meanDiv (hrow X W BL b)) (istdDiv (hrow X W BL b)) (hrow X W BL b) (fun o' => WG (ix1 o')) (fun o' => BG (ix1 o')))
    + BI (ix4 (0 : Fin 1) o (0 : Fin 1) (0 : Fin 1))

/-- The result at (channel o, batch row b), group statistics by multiplication with 1/32 and the clamped variance. -/
def resultMul (X : (⟨2, ![65536, 512]⟩ : Shape).Idx → EReal) (W : (⟨2, ![256, 512]⟩ : Shape).Idx → EReal)
    (BL WG BG : (⟨1, ![256]⟩ : Shape).Idx → EReal) (BI : (⟨4, ![1, 256, 1, 1]⟩ : Shape).Idx → EReal) (o : Fin 256) (b : Fin 65536) : EReal :=
  rowMin (gn (meanMul (hrow X W BL b)) (istdMul (hrow X W BL b)) (hrow X W BL b) (fun o' => WG (ix1 o')) (fun o' => BG (ix1 o')))
    + BI (ix4 (0 : Fin 1) o (0 : Fin 1) (0 : Fin 1))

/-- With real x, w and bl every channel value of every batch row is real. -/
theorem hrow_real (X : (⟨2, ![65536, 512]⟩ : Shape).Idx → EReal) (W : (⟨2, ![256, 512]⟩ : Shape).Idx → EReal)
    (BL : (⟨1, ![256]⟩ : Shape).Idx → EReal)
    (hX : ∀ i, ∃ r : ℝ, X i = (r : EReal)) (hW : ∀ i, ∃ r : ℝ, W i = (r : EReal)) (hBL : ∀ i, ∃ r : ℝ, BL i = (r : EReal))
    (b : Fin 65536) (o : Fin 256) : ∃ r : ℝ, hrow X W BL b o = (r : EReal) := by
  choose x hx using hX
  choose w hw using hW
  choose bl hbl using hBL
  refine ⟨(∑ k : Fin 512, x (ix2 b k) * w (ix2 o k)) + bl (ix1 o), ?_⟩
  unfold hrow
  simp only [hx, hw, hbl, ← EReal.coe_mul, Cert.Lib.RealSum.coe_sum, ← EReal.coe_add]

/-- So the two spellings are one result. -/
theorem result_eq (X : (⟨2, ![65536, 512]⟩ : Shape).Idx → EReal) (W : (⟨2, ![256, 512]⟩ : Shape).Idx → EReal)
    (BL WG BG : (⟨1, ![256]⟩ : Shape).Idx → EReal) (BI : (⟨4, ![1, 256, 1, 1]⟩ : Shape).Idx → EReal)
    (hX : ∀ i, ∃ r : ℝ, X i = (r : EReal)) (hW : ∀ i, ∃ r : ℝ, W i = (r : EReal)) (hBL : ∀ i, ∃ r : ℝ, BL i = (r : EReal))
    (o : Fin 256) (b : Fin 65536) : resultDiv X W BL WG BG BI o b = resultMul X W BL WG BG BI o b := by
  unfold resultDiv resultMul
  rw [rowMin_eq _ _ _ (hrow_real X W BL hX hW hBL b)]

end Cert.ResultSpec

end
-- ==== Proof.KernelValue.lean ====
/-
  From the kernel's blocks to its result array.

  The grid has 32 points; point t works on batch rows 2048 t … 2048 t + 2047. Its windows: rows 2048 t … of x (block
  index (t, 0)); the whole of w; the four per-channel columns, which @main made from bl, the scale, the shift and the
  final bias by reshapes to [256, 1] before the call (block index (0, 0) each); and columns 2048 t … of the
  [256, 65536] output (block index (0, t)). Entry (o, c) of what point t writes back is therefore the result
  (ResultSpec, the "times 1/32" spelling) at channel o and batch row 2048 t + c; the 32 output blocks tile the array
  (batch row b lies in block b / 2048), so the array after the call is that result at every (o, b); and @main's last
  reshape to [1, 256, 65536, 1] reads it at (0, o, b, 0).
-/
import proofs.«140552_j66924180406504_2_alg».proof.Proof.Gen.KernelIdeal.Frame
import proofs.«140552_j66924180406504_2_alg».proof.Proof.KernelStages
import proofs.«140552_j66924180406504_2_alg».proof.Proof.ResultSpec
import Idealize.ShloMosaic.Lib.Pipeline.Value
import Idealize.ShloMosaic.Lib.StableHlo.Run

noncomputable section

namespace Cert.KernelIdeal.Gen.Blocks

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.RowSpec

variable (m : (ℓ : Loc nD τ sig) → Buf (Elt Ideal) ℓ) (ρ : Dev nD → PrngReg)

/-! ## The argument arrays, as functions of their indices -/

abbrev aX (c : Dev nD) : S65536x512.Idx → EReal := m ((c : Thread nD τ).loc main_arg0)
abbrev aW (c : Dev nD) : S256x512.Idx → EReal := m ((c : Thread nD τ).loc main_arg1)
abbrev aBL (c : Dev nD) : S256.Idx → EReal := m ((c : Thread nD τ).loc main_arg2)
abbrev aWG (c : Dev nD) : S256.Idx → EReal := m ((c : Thread nD τ).loc main_arg3)
abbrev aBG (c : Dev nD) : S256.Idx → EReal := m ((c : Thread nD τ).loc main_arg4)
abbrev aBI (c : Dev nD) : S1x256x1x1.Idx → EReal := m ((c : Thread nD τ).loc main_arg5)

/-- The [256, 65536] array the call leaves: the result at (channel, batch row). -/
def out2d (c : Dev nD) : S256x65536.Idx → EReal := fun i =>
  Cert.ResultSpec.resultMul (aX m c) (aW m c) (aBL m c) (aWG m c) (aBG m c) (aBI m c) (i 0) (i 1)

/-! ## The index maps, decided over the grid -/

theorem hz : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- Batch row c of point t's block is batch row 2048 t + c of the array. -/
def rowOf (t : Fin cfg0.N) (cc : Fin 2048) : Fin 65536 :=
  ⟨t.val * 2048 + cc.val, by have := lt_of_lt_of_eq t.isLt N_0; have := cc.isLt; omega⟩

/-! ## The columns @main made before the call -/

theorem V_v0 (c : Dev nD) : (V m c main_v0 : S256x1.Idx → EReal) = shapeCast S256x1 (aBL m c) shapeCasts_S256_S256x1 := by
  show StableHlo.after hostOps0 (fun b => m (c, b)) (Proc.devRef .tc main_v0) = _
  after_results
  rfl

theorem V_v1 (c : Dev nD) : (V m c main_v1 : S256x1.Idx → EReal) = shapeCast S256x1 (aWG m c) shapeCasts_S256_S256x1 := by
  show StableHlo.after hostOps0 (fun b => m (c, b)) (Proc.devRef .tc main_v1) = _
  after_results
  rfl

theorem V_v2 (c : Dev nD) : (V m c main_v2 : S256x1.Idx → EReal) = shapeCast S256x1 (aBG m c) shapeCasts_S256_S256x1 := by
  show StableHlo.after hostOps0 (fun b => m (c, b)) (Proc.devRef .tc main_v2) = _
  after_results
  rfl

theorem V_v3 (c : Dev nD) : (V m c main_v3 : S256x1.Idx → EReal) = shapeCast S256x1 (aBI m c) shapeCasts_S1x256x1x1_S256x1 := by
  show StableHlo.after hostOps0 (fun b => m (c, b)) (Proc.devRef .tc main_v3) = _
  after_results
  rfl

/-! ## Each window's block, read as the argument arrays -/

theorem blk0_apply (c : Dev nD) (t : Fin cfg0.N) (cc : Fin 2048) (k : Fin 512) :
    iblk m c 0 t (ix2 cc k) = aX m c (ix2 (rowOf t cc) k) := by
  obtain ⟨e0, e1, -⟩ := idx_facts t
  have hemb : ((cfg0.win 0).blk t).view.emb (ix2 cc k) = ix2 (rowOf t cc) k := by
    funext a; apply Fin.ext
    match a with
    | ⟨0, _⟩ => show win0_0.index t (0 : Fin 2) * 2048 + 1 * cc.val = t.val * 2048 + cc.val; omega
    | ⟨1, _⟩ => show win0_0.index t (1 : Fin 2) * 512 + 1 * k.val = k.val; omega
  show V m c main_arg0 (((cfg0.win 0).blk t).view.emb (ix2 cc k)) = _
  rw [hemb, V_main_arg0]

theorem blk1_apply (c : Dev nD) (t : Fin cfg0.N) (o : Fin 256) (k : Fin 512) :
    iblk m c 1 t (ix2 o k) = aW m c (ix2 o k) := by
  obtain ⟨-, -, e2, e3, -⟩ := idx_facts t
  have hemb : ((cfg0.win 1).blk t).view.emb (ix2 o k) = ix2 o k := by
    funext a; apply Fin.ext
    match a with
    | ⟨0, _⟩ => show win0_1.index t (0 : Fin 2) * 256 + 1 * o.val = o.val; omega
    | ⟨1, _⟩ => show win0_1.index t (1 : Fin 2) * 512 + 1 * k.val = k.val; omega
  show V m c main_arg1 (((cfg0.win 1).blk t).view.emb (ix2 o k)) = _
  rw [hemb, V_main_arg1]

theorem blk2_apply (c : Dev nD) (t : Fin cfg0.N) (o : Fin 256) :
    iblk m c 2 t (ix2 o (0 : Fin 1)) = aBL m c (ix1 o) := by
  obtain ⟨-, -, -, -, e4, e5, -⟩ := idx_facts t
  have hemb : ((cfg0.win 2).blk t).view.emb (ix2 o (0 : Fin 1)) = ix2 o (0 : Fin 1) := by
    funext a; apply Fin.ext
    match a with
    | ⟨0, _⟩ => show win0_2.index t (0 : Fin 2) * 256 + 1 * o.val = o.val; omega
    | ⟨1, _⟩ => show win0_2.index t (1 : Fin 2) * 1 + 1 * 0 = 0; omega
  show (V m c main_v0 : S256x1.Idx → EReal) (((cfg0.win 2).blk t).view.emb (ix2 o (0 : Fin 1))) = _
  rw [hemb, V_v0]
  exact Keepdims.shapeCast_a_a1_apply _ shapeCasts_S256_S256x1 o 0

theorem blk3_apply (c : Dev nD) (t : Fin cfg0.N) (o : Fin 256) :
    iblk m c 3 t (ix2 o (0 : Fin 1)) = aWG m c (ix1 o) := by
  obtain ⟨-, -, -, -, -, -, e6, e7, -⟩ := idx_facts t
  have hemb : ((cfg0.win 3).blk t).view.emb (ix2 o (0 : Fin 1)) = ix2 o (0 : Fin 1) := by
    funext a; apply Fin.ext
    match a with
    | ⟨0, _⟩ => show win0_3.index t (0 : Fin 2) * 256 + 1 * o.val = o.val; omega
    | ⟨1, _⟩ => show win0_3.index t (1 : Fin 2) * 1 + 1 * 0 = 0; omega
  show (V m c main_v1 : S256x1.Idx → EReal) (((cfg0.win 3).blk t).view.emb (ix2 o (0 : Fin 1))) = _
  rw [hemb, V_v1]
  exact Keepdims.shapeCast_a_a1_apply _ shapeCasts_S256_S256x1 o 0

theorem blk4_apply (c : Dev nD) (t : Fin cfg0.N) (o : Fin 256) :
    iblk m c 4 t (ix2 o (0 : Fin 1)) = aBG m c (ix1 o) := by
  obtain ⟨-, -, -, -, -, -, -, -, e8, e9, -⟩ := idx_facts t
  have hemb : ((cfg0.win 4).blk t).view.emb (ix2 o (0 : Fin 1)) = ix2 o (0 : Fin 1) := by
    funext a; apply Fin.ext
    match a with
    | ⟨0, _⟩ => show win0_4.index t (0 : Fin 2) * 256 + 1 * o.val = o.val; omega
    | ⟨1, _⟩ => show win0_4.index t (1 : Fin 2) * 1 + 1 * 0 = 0; omega
  show (V m c main_v2 : S256x1.Idx → EReal) (((cfg0.win 4).blk t).view.emb (ix2 o (0 : Fin 1))) = _
  rw [hemb, V_v2]
  exact Keepdims.shapeCast_a_a1_apply _ shapeCasts_S256_S256x1 o 0

theorem blk5_apply (c : Dev nD) (t : Fin cfg0.N) (o : Fin 256) :
    iblk m c 5 t (ix2 o (0 : Fin 1)) = aBI m c (ix4 (0 : Fin 1) o (0 : Fin 1) (0 : Fin 1)) := by
  obtain ⟨-, -, -, -, -, -, -, -, -, -, e10, e11, -⟩ := idx_facts t
  have hemb : ((cfg0.win 5).blk t).view.emb (ix2 o (0 : Fin 1)) = ix2 o (0 : Fin 1) := by
    funext a; apply Fin.ext
    match a with
    | ⟨0, _⟩ => show win0_5.index t (0 : Fin 2) * 256 + 1 * o.val = o.val; omega
    | ⟨1, _⟩ => show win0_5.index t (1 : Fin 2) * 1 + 1 * 0 = 0; omega
  show (V m c main_v3 : S256x1.Idx → EReal) (((cfg0.win 5).blk t).view.emb (ix2 o (0 : Fin 1))) = _
  rw [hemb, V_v3]
  exact shapeCast_apply (aBI m c) shapeCasts_S1x256x1x1_S256x1 (ix2 o (0 : Fin 1)) (ix4 (0 : Fin 1) o (0 : Fin 1) (0 : Fin 1)) (by
    rw [Shape.rowMajor_val_four, Shape.rowMajor_val_two]
    show ((0 * 256 + o.val) * 1 + 0) * 1 + 0 = o.val * 1 + 0
    omega)

/-- A row of a block of the linear layer, when the block's three operands read as parts of whole arrays, is a row of
    the whole linear layer (the product's factors in the other order). -/
theorem hrow_of_reads (x0 : Vec Ideal S2048x512 .f32) (x1 : Vec Ideal S256x512 .f32) (x2 : Vec Ideal S256x1 .f32)
    (X : S65536x512.Idx → EReal) (W : S256x512.Idx → EReal) (BL : S256.Idx → EReal) (b : Fin 65536) (cc : Fin 2048)
    (h0 : ∀ k : Fin 512, x0 (ix2 cc k) = X (ix2 b k)) (h1 : ∀ (o : Fin 256) (k : Fin 512), x1 (ix2 o k) = W (ix2 o k))
    (h2 : ∀ o : Fin 256, x2 (ix2 o (0 : Fin 1)) = BL (ix1 o)) :
    Stages.hrow x0 x1 x2 cc = Cert.ResultSpec.hrow X W BL b := by
  funext o
  show (∑ k : Fin 512, x1 (ix2 o k) * x0 (ix2 cc k)) + x2 (ix2 o (0 : Fin 1)) = (∑ k : Fin 512, X (ix2 b k) * W (ix2 o k)) + BL (ix1 o)
  rw [h2]
  refine congrArg (· + BL (ix1 o)) (Finset.sum_congr rfl fun k _ => ?_)
  rw [h1, h0, mul_comm]

/-- Batch row c of point t's block of the linear layer is batch row 2048 t + c of the whole linear layer. -/
theorem hrow_blk (c : Dev nD) (t : Fin cfg0.N) (cc : Fin 2048) :
    Stages.hrow (iblk m c 0 t) (iblk m c 1 t) (iblk m c 2 t) cc = Cert.ResultSpec.hrow (aX m c) (aW m c) (aBL m c) (rowOf t cc) :=
  hrow_of_reads (iblk m c 0 t) (iblk m c 1 t) (iblk m c 2 t) (aX m c) (aW m c) (aBL m c) (rowOf t cc) cc
    (fun k => blk0_apply m c t cc k) (fun o k => blk1_apply m c t o k) (fun o => blk2_apply m c t o)

/-! ## What point t writes back, the cover, the array -/

theorem flushed6_eq (c : Dev nD) (t : Fin cfg0.N) :
    (dats m 0 c).flushed 6 t = ((cfg0.win 6).blk t).view.read (Elt Ideal) (out2d m c) := by
  show (cfg0.win 6).cut (grid0.coords t) ((dats m 0 c).after 6 t) = _
  rw [after0_6]
  unfold out0_6
  rw [View.canon_unit_zero hz]
  simp only [View.ld_unit_zero (S := S2048x512) hz, View.ld_unit_zero (S := S256x512) hz, View.ld_unit_zero (S := S256x1) hz]
  funext j
  obtain ⟨o, cc, rfl⟩ : ∃ (o : Fin 256) (cc : Fin 2048), j = ix2 o cc := ⟨j 0, j 1, eq_ix2 (n0 := 256) (n1 := 2048) j⟩
  show k0_pay1 (k0_pay2 (iblk m c 0 t) (iblk m c 1 t) (iblk m c 2 t) (iblk m c 3 t) (iblk m c 4 t)) (iblk m c 5 t) (ix2 o cc)
      = out2d m c (((cfg0.win 6).blk t).view.emb (ix2 o cc))
  have hemb : ((cfg0.win 6).blk t).view.emb (ix2 o cc) = ix2 o (rowOf t cc) := by
    obtain ⟨-, -, -, -, -, -, -, -, -, -, -, -, e12, e13⟩ := idx_facts t
    funext a; apply Fin.ext
    match a with
    | ⟨0, _⟩ => show win0_6.index t (0 : Fin 2) * 256 + 1 * o.val = o.val; omega
    | ⟨1, _⟩ => show win0_6.index t (1 : Fin 2) * 2048 + 1 * cc.val = t.val * 2048 + cc.val; omega
  rw [hemb]
  refine (Stages.pay_apply (iblk m c 0 t) (iblk m c 1 t) (iblk m c 2 t) (iblk m c 3 t) (iblk m c 4 t) (iblk m c 5 t) o cc).trans ?_
  have h3 : (fun o' : Fin 256 => iblk m c 3 t (ix2 o' (0 : Fin 1))) = fun o' => aWG m c (ix1 o') := funext fun o' => blk3_apply m c t o'
  have h4 : (fun o' : Fin 256 => iblk m c 4 t (ix2 o' (0 : Fin 1))) = fun o' => aBG m c (ix1 o') := funext fun o' => blk4_apply m c t o'
  rw [hrow_blk, blk5_apply, h3, h4]
  rfl

theorem mem_blk6 (t : Fin cfg0.N) (i : S256x65536.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v4).slice (win0_6.rect t)).set ↔ _
  rw [View.set_slice_whole, Rect.mem_set_unit]
  exact Iff.rfl

/-- Batch row b lies in the block of point b / 2048. -/
theorem cover6 (i : S256x65536.Idx) : ∃ t : Fin cfg0.N, (cfg0.win 6).flush t = true ∧ i ∈ ((cfg0.win 6).blk t).view.set := by
  have h0 : (i 0).val < 256 := (i 0).isLt
  have h1 : (i 1).val < 65536 := (i 1).isLt
  obtain ⟨t, ht⟩ : ∃ t : Fin cfg0.N, t.val = (i 1).val / 2048 :=
    ⟨⟨(i 1).val / 2048, (by omega : (i 1).val / 2048 < 32).trans_eq N_0.symm⟩, rfl⟩
  obtain ⟨-, -, -, -, -, -, -, -, -, -, -, -, e12, e13⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

/-- The output array after the call. -/
theorem final6 (c : Dev nD) : (dats m 0 c).arrAt 6 cfg0.N = out2d m c :=
  (dats m 0 c).arrAt_eq_of_cover 6 (out2d m c) (fun t _ => flushed6_eq m c t) cover6

/-! ## The reshape after the call, and the run -/

/-- @main's result buffer holds the reshape of the call's output array. -/
theorem tail_eq (c : Dev nD) :
    Pipeline.afterTail₀ cfgs (dats m) 0 (V0 m) [hostOps1] c main_v5
      = shapeCast S1x256x65536x1 (out2d m c) shapeCasts_S256x65536_S1x256x65536x1 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4) = out2d m c :=
    (Pipeline.withArrays_arr spec0 launch0.win.arr_inj c _ _ 6).trans (final6 m c)
  exact congrArg (fun v => shapeCast S1x256x65536x1 v shapeCasts_S256x65536_S1x256x65536x1) e

/-- Entry (0, o, b, 0) of the reshape is entry (o, b). -/
theorem reshape_eq (c : Dev nD) :
    shapeCast S1x256x65536x1 (out2d m c) shapeCasts_S256x65536_S1x256x65536x1
      = fun i : S1x256x65536x1.Idx => Cert.ResultSpec.resultMul (aX m c) (aW m c) (aBL m c) (aWG m c) (aBG m c) (aBI m c) (i 1) (i 2) := by
  funext i
  obtain ⟨a, o, b, d, rfl⟩ : ∃ (a : Fin 1) (o : Fin 256) (b : Fin 65536) (d : Fin 1), i = ix4 a o b d := ⟨i 0, i 1, i 2, i 3, eq_ix4 i⟩
  refine (shapeCast_apply (out2d m c) shapeCasts_S256x65536_S1x256x65536x1 (ix4 a o b d) (ix2 o b) (by
    rw [Shape.rowMajor_val_two, Shape.rowMajor_val_four]
    show o.val * 65536 + b.val = ((a.val * 256 + o.val) * 65536 + b.val) * 1 + d.val
    have := a.isLt; have := d.isLt; omega)).trans ?_
  rfl

/-- The kernel program's run: it terminates with the result buffer at the result (the "times 1/32" spelling) of its
    own argument arrays, and the arguments unchanged. -/
theorem run : θ_run defs (onTc (τ := τ) (main (F := Ideal))) ⟨m, fun _ => 0, ρ⟩ fun r => ∀ c : Dev nD,
      r.2.mem ((c.tc : Thread nD τ).loc main_v5)
        = (fun i : S1x256x65536x1.Idx => Cert.ResultSpec.resultMul (aX m c) (aW m c) (aBL m c) (aWG m c) (aBG m c) (aBI m c) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans ((tail_eq m c).trans (reshape_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Gen.Blocks

end
-- ==== Proof.ReferenceValue.lean ====
/-
  The reference program's result, read entry by entry.

  The reference works batch row by batch row: it forms the [65536, 256] array h(b, o) = Σ_k x(b, k) · w(o, k) + bl(o),
  views each row as 8 groups of 32 ([65536, 8, 32]; entry (b, g, j) is h(b, 32 g + j)), takes each group's mean
  (0 + Σ_j) / 32, the mean of the squared deviations the same way, and 1 / sqrt(that + eps); normalises, flattens back
  to [65536, 256] (entry (b, o) comes from (b, o / 32, o % 32)), scales and shifts per channel, takes the minimum
  over the channels of each row, and adds the last argument broadcast over the batch rows into [1, 256, 65536, 1].
  Each lemma below reads one stage at an index; together: entry (0, o, b, 0) is `ResultSpec.resultDiv … o b`.
-/
import proofs.«140552_j66924180406504_2_alg».proof.Proof.Gen.ReferenceIdeal.Read
import Idealize.ShloMosaic.PureOps.Ideal.Laws
import proofs.«140552_j66924180406504_2_alg».proof.Proof.ResultSpec

noncomputable section

namespace Cert.ReferenceIdeal.RefValue

open Cert.ReferenceIdeal Cert.ReferenceIdeal.Gen Cert.ReferenceIdeal.Read Idealize.ShloMosaic Idealize.ShloMosaic.ValueIdx
open Cert.RowSpec Cert.ResultSpec

variable (X : (⟨S65536x512, .f32⟩ : BufTy).Contents (Elt Ideal)) (W : (⟨S256x512, .f32⟩ : BufTy).Contents (Elt Ideal))
  (BL WG BG : (⟨S256, .f32⟩ : BufTy).Contents (Elt Ideal)) (BI : (⟨S1x256x1x1, .f32⟩ : BufTy).Contents (Elt Ideal))

/-- The linear layer at (b, o). -/
theorem v3_at (b : Fin 65536) (o : Fin 256) : val_main_v3 (F := Ideal) X W BL (ix2 b o) = hrow X W BL b o := by
  rw [val_main_v3_apply, val_main_v0_apply, val_main_v2_apply, val_main_v1_apply]
  have e1 : ∀ k : Fin 512, lidx_main_v0 (ix2 b o) k = ix2 b k := fun k =>
    funext fun a => Fin.ext (by match a with | ⟨0, _⟩ => rfl | ⟨1, _⟩ => rfl)
  have e2 : ∀ k : Fin 512, ridx_main_v0 (ix2 b o) k = ix2 o k := fun k =>
    funext fun a => Fin.ext (by match a with | ⟨0, _⟩ => rfl | ⟨1, _⟩ => rfl)
  have e3 : idx_main_v1 (idx_main_v2 (ix2 b o)) = ix1 o := funext fun a => Fin.ext (by match a with | ⟨0, _⟩ => rfl)
  simp only [e1, e2, e3]
  rfl

/-- The group view: entry (b, g, j) is channel 32 g + j of row b. -/
theorem v4_at (b : Fin 65536) (g : Fin 8) (j : Fin 32) : val_main_v4 (F := Ideal) X W BL (ix3 b g j) = hrow X W BL b (chan g j) := by
  rw [val_main_v4_apply]
  have e : idx_main_v4 (ix3 b g j) = ix2 b (chan g j) := funext fun a => Fin.ext (by
    have hb := b.isLt; have hg := g.isLt; have hj := j.isLt
    match a with
    | ⟨0, _⟩ => show ((b.val * 8 + g.val) * 32 + j.val) / 256 = b.val; omega
    | ⟨1, _⟩ => show ((b.val * 8 + g.val) * 32 + j.val) % 256 = g.val * 32 + j.val; omega)
  rw [e, v3_at]

/-- The group mean, kept as a [65536, 8, 1] array. -/
theorem v8_at (b : Fin 65536) (g : Fin 8) : val_main_v8 (F := Ideal) X W BL (ix3 b g (0 : Fin 1)) = meanDiv (hrow X W BL b) g := by
  rw [val_main_v8_apply, val_main_v6_apply, val_main_v5_apply, val_main_v7_apply, val_main_cst_0_apply, val_main_cst_apply]
  have e : ∀ k : Fin 32, idx_main_v5 (idx_main_v6 (ix3 b g (0 : Fin 1))) k = ix3 b g k := fun k =>
    funext fun a => Fin.ext (by match a with | ⟨0, _⟩ => rfl | ⟨1, _⟩ => rfl | ⟨2, _⟩ => rfl)
  simp only [e, v4_at]
  rfl

/-- The mean spread back over the group (its first use). -/
theorem v9_at (b : Fin 65536) (g : Fin 8) (j : Fin 32) : val_main_v9 (F := Ideal) X W BL (ix3 b g j) = meanDiv (hrow X W BL b) g := by
  rw [val_main_v9_apply]
  have e : idx_main_v9 (ix3 b g j) = ix3 b g (0 : Fin 1) :=
    funext fun a => Fin.ext (by match a with | ⟨0, _⟩ => rfl | ⟨1, _⟩ => rfl | ⟨2, _⟩ => rfl)
  rw [e, v8_at]

/-- The mean spread back over the group (its second use). -/
theorem v16_at (b : Fin 65536) (g : Fin 8) (j : Fin 32) : val_main_v16 (F := Ideal) X W BL (ix3 b g j) = meanDiv (hrow X W BL b) g := by
  rw [val_main_v16_apply]
  have e : idx_main_v16 (ix3 b g j) = ix3 b g (0 : Fin 1) :=
    funext fun a => Fin.ext (by match a with | ⟨0, _⟩ => rfl | ⟨1, _⟩ => rfl | ⟨2, _⟩ => rfl)
  rw [e, v8_at]

/-- The reciprocal standard deviation of group g of row b. -/
theorem v20_at (b : Fin 65536) (g : Fin 8) : val_main_v20 (F := Ideal) X W BL (ix3 b g (0 : Fin 1)) = istdDiv (hrow X W BL b) g := by
  rw [val_main_v20_apply, val_main_v19_apply, val_main_v15_apply, val_main_v13_apply, val_main_v12_apply, val_main_v14_apply,
    val_main_cst_2_apply, val_main_cst_1_apply, val_main_v18_apply, val_main_cst_3_apply]
  have e : ∀ k : Fin 32, idx_main_v12 (idx_main_v13 (ix3 b g (0 : Fin 1))) k = ix3 b g k := fun k =>
    funext fun a => Fin.ext (by match a with | ⟨0, _⟩ => rfl | ⟨1, _⟩ => rfl | ⟨2, _⟩ => rfl)
  simp only [e, val_main_v11_apply, val_main_v10_apply, v4_at, v9_at]
  rfl

/-- The normalised, scaled and shifted channel o of row b. -/
theorem v29_at (b : Fin 65536) (o : Fin 256) :
    val_main_v29 (F := Ideal) X W BL WG BG (ix2 b o)
      = gn (meanDiv (hrow X W BL b)) (istdDiv (hrow X W BL b)) (hrow X W BL b) (fun o' => WG (ix1 o')) (fun o' => BG (ix1 o')) o := by
  rw [val_main_v29_apply, val_main_v26_apply, val_main_v23_apply, val_main_v22_apply, val_main_v17_apply, val_main_v21_apply,
    val_main_v25_apply, val_main_v24_apply, val_main_v28_apply, val_main_v27_apply]
  have e23 : idx_main_v23 (ix2 b o) = ix3 b (grp o) (⟨o.val % 32, Nat.mod_lt _ (by norm_num)⟩ : Fin 32) := funext fun a => Fin.ext (by
    have hb := b.isLt; have ho := o.isLt
    match a with
    | ⟨0, _⟩ => show (b.val * 256 + o.val) / 256 = b.val; omega
    | ⟨1, _⟩ => show (b.val * 256 + o.val) / 32 % 8 = o.val / 32; omega
    | ⟨2, _⟩ => show (b.val * 256 + o.val) % 32 = o.val % 32; omega)
  have e21 : idx_main_v21 (ix3 b (grp o) (⟨o.val % 32, Nat.mod_lt _ (by norm_num)⟩ : Fin 32)) = ix3 b (grp o) (0 : Fin 1) :=
    funext fun a => Fin.ext (by match a with | ⟨0, _⟩ => rfl | ⟨1, _⟩ => rfl | ⟨2, _⟩ => rfl)
  have ech : chan (grp o) (⟨o.val % 32, Nat.mod_lt _ (by norm_num)⟩ : Fin 32) = o :=
    Fin.ext (by show o.val / 32 * 32 + o.val % 32 = o.val; omega)
  have e25 : idx_main_v24 (idx_main_v25 (ix2 b o)) = ix1 o := funext fun a => Fin.ext (by match a with | ⟨0, _⟩ => rfl)
  have e28 : idx_main_v27 (idx_main_v28 (ix2 b o)) = ix1 o := funext fun a => Fin.ext (by match a with | ⟨0, _⟩ => rfl)
  rw [e23, v4_at, v16_at, e21, v20_at, ech, e25, e28]
  rfl

/-- The minimum over the channels of row b. -/
theorem v30_at (b : Fin 65536) :
    val_main_v30 (F := Ideal) X W BL WG BG (ix1 b)
      = rowMin (gn (meanDiv (hrow X W BL b)) (istdDiv (hrow X W BL b)) (hrow X W BL b) (fun o' => WG (ix1 o')) (fun o' => BG (ix1 o'))) := by
  have hR : S65536x256.Reduces [1] S65536 := by decide
  unfold val_main_v30 rowMin
  refine (Host.reduce_eq_fold_single FloatOps.minimumf _ _ reducesTo_S65536x256_S65536_d1 hR h_S_ (ix1 b)).trans ?_
  have e : (val_main_v29 (F := Ideal) X W BL WG BG ∘ hR.lift (ix1 b))
      = gn (meanDiv (hrow X W BL b)) (istdDiv (hrow X W BL b)) (hrow X W BL b) (fun o' => WG (ix1 o')) (fun o' => BG (ix1 o')) :=
    funext fun o => (congrArg (val_main_v29 (F := Ideal) X W BL WG BG)
      (show hR.lift (ix1 b) o = ix2 b o from funext fun a => Fin.ext (by match a with | ⟨0, _⟩ => rfl | ⟨1, _⟩ => rfl))).trans
      (v29_at X W BL WG BG b o)
  exact congrArg (fun f => Finset.fold min (Ideal.ofBits .f32 0x7F800000#32) f (Finset.univ : Finset (Fin 256))) e

/-- Entry (a, o, b, d) of the result (a and d range over one value). -/
theorem result_at (a : Fin 1) (o : Fin 256) (b : Fin 65536) (d : Fin 1) :
    val_main_v35 (F := Ideal) X W BL WG BG BI (ix4 a o b d) = resultDiv X W BL WG BG BI o b := by
  rw [val_main_v35_apply, val_main_v33_apply, val_main_v32_apply, val_main_v31_apply, val_main_v34_apply]
  have e1 : idx_main_v31 (idx_main_v32 (idx_main_v33 (ix4 a o b d))) = ix1 b := funext fun x => Fin.ext (by match x with | ⟨0, _⟩ => rfl)
  have e2 : idx_main_v34 (ix4 a o b d) = ix4 (0 : Fin 1) o (0 : Fin 1) (0 : Fin 1) :=
    funext fun x => Fin.ext (by match x with | ⟨0, _⟩ => rfl | ⟨1, _⟩ => rfl | ⟨2, _⟩ => rfl | ⟨3, _⟩ => rfl)
  rw [e1, e2, v30_at]
  rfl

/-- The reference's whole result array. -/
theorem result_eq : val_main_v35 (F := Ideal) X W BL WG BG BI = fun i => resultDiv X W BL WG BG BI (i 1) (i 2) := by
  funext i
  obtain ⟨a, o, b, d, rfl⟩ : ∃ (a : Fin 1) (o : Fin 256) (b : Fin 65536) (d : Fin 1), i = ix4 a o b d := ⟨i 0, i 1, i 2, i 3, eq_ix4 i⟩
  exact result_at X W BL WG BG BI a o b d

end Cert.ReferenceIdeal.RefValue

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.FiniteInputs.lean ====
/-
  The precondition read back: every entry of x, w and bl is a real number.

  The precondition is the conjunction, input by input, of "all entries have |v| < +∞". The conjunction is a left-nested
  chain of ands over one-bit words; it is 1 only if every conjunct is 1, and a conjunct that is 1 makes every entry of
  its input a real number (LibFiniteEntry). Only the three inputs of the linear layer are needed: the group statistics
  are compared on the linear layer's values, and the per-channel scale, shift and final bias enter both programs in
  the same way.
-/
import proofs.«140552_j66924180406504_2_alg».proof.Pre_finite_inputs
import proofs.«140552_j66924180406504_2_alg».proof.Proof.Gen.Pre_finite_inputs
import proofs.«140552_j66924180406504_2_alg».proof.Proof.LibFiniteEntry

noncomputable section

namespace Cert.Pre_finite_inputs.Finite

open Cert.Pre_finite_inputs Idealize.ShloMosaic Idealize.ShloMosaic.ValueIdx

/-- If the precondition holds of the six arrays, the first three hold real numbers only. -/
theorem real_of_pre (X : FVec Ideal S65536x512 .f32) (W : FVec Ideal S256x512 .f32) (BL WG BG : FVec Ideal S256 .f32)
    (BI : FVec Ideal S1x256x1x1 .f32) (h : fn (F := Ideal) X W BL WG BG BI = fun _ => 1#1) :
    (∀ i, ∃ r : ℝ, X i = (r : EReal)) ∧ (∀ i, ∃ r : ℝ, W i = (r : EReal)) ∧ (∀ i, ∃ r : ℝ, BL i = (r : EReal)) := by
  have h0 := congrFun h ix0
  dsimp only [fn, fn_part1] at h0
  have a1 := (IntOp.andi_eq_one.mp h0).1
  have a2 := (IntOp.andi_eq_one.mp a1).1
  have a3 := (IntOp.andi_eq_one.mp a2).1
  have a4 := IntOp.andi_eq_one.mp a3
  have a5 := IntOp.andi_eq_one.mp a4.1
  exact ⟨Cert.Lib.FiniteEntry.all_real X _ _ _ _ a5.1, Cert.Lib.FiniteEntry.all_real W _ _ _ _ a5.2,
    Cert.Lib.FiniteEntry.all_real BL _ _ _ _ a4.2⟩

end Cert.Pre_finite_inputs.Finite

end
-- ==== Proof.lean ====
/-
  A fused linear layer, group normalisation, minimum over the channels and bias add, against its jnp reference.

  Both programs compute, for batch row b and channel o, h(b, o) = Σ_k x(b, k) · w(o, k) + bl(o); normalise each of the
  8 groups of 32 consecutive channels of a row by the group's mean and 1 / sqrt(variance + eps); scale and shift per
  channel; take the minimum over the 256 channels of the row; and add the last argument at channel o, giving a
  [1, 256, 65536, 1] result. The kernel does this on 32 blocks of 2048 batch rows with the channels on the leading axis
  and writes a [256, 65536] array that @main reshapes; the reference works on the [65536, 256] layout.

  The two differ in how the group statistics are written: the kernel multiplies the sums by 1/32 (the word 0x3D000000,
  exactly 2⁻⁵) and takes the variance as max(mean of squares − squared mean, 0); the reference divides by 32 and takes
  the mean of the squared deviations. On the extended reals the means agree always; the variances agree when the values
  h(b, o) are real numbers, which the precondition (every entry of x, w and bl finite) gives; the rounding of the
  product's operands to bf16 is the identity on the extended reals, and the product's factors commute.

  The frames of the two kernel programs and the run of the reference are the generated modules'; what is proved here and
  in the modules imported below is the value: the kernel's result array (KernelValue, over KernelStages), the
  reference's (ReferenceValue), that the two are one function under the precondition (RowSpec, ResultSpec,
  FiniteInputs), and the claims.
-/
import proofs.«140552_j66924180406504_2_alg».proof.Defs
import proofs.«140552_j66924180406504_2_alg».proof.Proof.Gen.Kernel
import proofs.«140552_j66924180406504_2_alg».proof.Proof.Gen.Kernel.Skeleton
import proofs.«140552_j66924180406504_2_alg».proof.Proof.Gen.Kernel.Launch
import proofs.«140552_j66924180406504_2_alg».proof.Proof.Gen.Kernel.Points
import proofs.«140552_j66924180406504_2_alg».proof.Proof.Gen.Kernel.Frame
import proofs.«140552_j66924180406504_2_alg».proof.Proof.Gen.KernelIdeal
import proofs.«140552_j66924180406504_2_alg».proof.Proof.Gen.KernelIdeal.Skeleton
import proofs.«140552_j66924180406504_2_alg».proof.Proof.Gen.KernelIdeal.Launch
import proofs.«140552_j66924180406504_2_alg».proof.Proof.Gen.KernelIdeal.Points
import proofs.«140552_j66924180406504_2_alg».proof.Proof.Gen.KernelIdeal.Frame
import proofs.«140552_j66924180406504_2_alg».proof.Proof.Gen.ReferenceIdeal
import proofs.«140552_j66924180406504_2_alg».proof.Proof.Gen.Pre_finite_inputs
import proofs.«140552_j66924180406504_2_alg».proof.Proof.Gen.ReferenceIdeal.Run
import proofs.«140552_j66924180406504_2_alg».proof.Proof.Gen.ReferenceIdeal.Read
import proofs.«140552_j66924180406504_2_alg».proof.Proof.KernelValue
import proofs.«140552_j66924180406504_2_alg».proof.Proof.ReferenceValue
import proofs.«140552_j66924180406504_2_alg».proof.Proof.FiniteInputs
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From memories agreeing on the arguments both programs end with the same result: the kernel's run ends at the
    result in the "times 1/32" spelling, the reference's at the result in the "divided by 32" spelling, and under the
    precondition the two are equal at every entry. -/
theorem algebraic : Cert.algebraic_KernelIdeal_ReferenceIdeal := by
  intro m ρ m' ρ' hpre hagree
  refine ⟨fun c => fun i => Cert.ResultSpec.resultMul
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (i 1) (i 2),
    Cert.KernelIdeal.Gen.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq,
    (hagree c).1, (hagree c).2.1, (hagree c).2.2.1, (hagree c).2.2.2.1, (hagree c).2.2.2.2.1, (hagree c).2.2.2.2.2]
  obtain ⟨hX, hW, hBL⟩ := Cert.Pre_finite_inputs.Finite.real_of_pre _ _ _ _ _ _ (hpre c)
  funext i
  exact Cert.ResultSpec.result_eq _ _ _ _ _ _ hX hW hBL (i 1) (i 2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
